-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S4x256x256 .f32) (main_arg8 : FVec F S4x256 .f32) (main_arg9 : FVec F S256x1 .f32) (main_arg10 : FVec F S1 .f32) (main_v33 : IVec S_ 1) : IVec S_ 1 :=
  let main_v34 : FVec F S4x256x256 .f32 := Host.absf main_arg7
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1 .f32) (main_arg5 : FVec F S4x256 .f32) (main_arg6 : FVec F S256 .f32) (main_arg7 : FVec F S4x256x256 .f32) (main_arg8 : FVec F S4x256 .f32) (main_arg9 : FVec F S256x1 .f32) (main_arg10 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x4 .f32) (main_arg1 : FVec F S4x64 .f32) (main_arg2 : FVec F S64 .f32) (main_arg3 : FVec F S64x1 .f32) (main_arg4 : FVec F S1 .f32) (main_arg5 : FVec F S4x256 .f32) (main_arg6 : FVec F S256 .f32) (main_arg7 : FVec F S4x256x256 .f32) (main_arg8 : FVec F S4x256 .f32) (main_arg9 : FVec F S256x1 .f32) (main_arg10 : FVec F S1 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_arg9 main_arg10 main_v13 main_v16
-- ==== Kernel.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S524288x1 : Shape := ⟨2, ![524288, 1]⟩
abbrev S4096x4 : Shape := ⟨2, ![4096, 4]⟩
abbrev S4096x1 : Shape := ⟨2, ![4096, 1]⟩
abbrev S4096x64 : Shape := ⟨2, ![4096, 64]⟩
abbrev S1x64 : Shape := ⟨2, ![1, 64]⟩
abbrev S1x1 : Shape := ⟨2, ![1, 1]⟩
abbrev S4096x256 : Shape := ⟨2, ![4096, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S524288x4, .f32⟩
  | .hbm, ⟨1, _⟩ => ⟨S4x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S4x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x1, .f32⟩
  | .hbm, ⟨10, _⟩ => ⟨S1, .f32⟩
  | .hbm, ⟨11, _⟩ => ⟨S4x256x256, .bf16⟩
  | .hbm, ⟨12, _⟩ => ⟨S256x1, .bf16⟩
  | .hbm, ⟨13, _⟩ => ⟨S524288x1, .f32⟩
  | .local _ .vmem, ⟨0, _⟩ => ⟨S4096x4, .f32⟩
  | .local _ .vmem, ⟨1, _⟩ => ⟨S4096x4, .f32⟩
  | .local _ .vmem, ⟨2, _⟩ => ⟨S4x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S4x256, .f32⟩
  | .local _ .vmem, ⟨7, _⟩ => ⟨S256, .f32⟩
  | .local _ .vmem, ⟨8, _⟩ => ⟨S4x256x256, .bf16⟩
  | .local _ .vmem, ⟨9, _⟩ => ⟨S4x256, .f32⟩
  | .local _ .vmem, ⟨10, _⟩ => ⟨S256x1, .bf16⟩
  | .local _ .vmem, ⟨11, _⟩ => ⟨S1, .f32⟩
  | .local _ .vmem, ⟨12, _⟩ => ⟨S4096x1, .f32⟩
  | .local _ .vmem, ⟨13, _⟩ => ⟨S4096x1, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4x256_S4x256_0_0 : ∀ a, (![0, 0] : Fin 2 → Nat) a + S4x256.size a ≤ S4x256.size a
  h_S4x256 : 0 < S4x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  broadcasts_S4096x1_S4096x256 : S4096x1.Broadcasts S4096x256
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S4096x1_S4096x1_0_0 : ∀ a, (![0, 0] : Fin 2 → Nat) a + S4096x1.size a ≤ S4096x1.size a
  h_S4096x1 : 0 < S4096x1.numel
  dot_S4096x4_S4x64_S4096x64_1_0_0_1_n_n_wf : DotDims.WF S4096x4 S4x64 S4096x64 [1] [0] [0] [1] [] []
  dot_S4096x64_S64x1_S4096x1_1_0_0_1_n_n_wf : DotDims.WF S4096x64 S64x1 S4096x1 [1] [0] [0] [1] [] []
  dot_S4096x4_S4x256_S4096x256_1_0_0_1_n_n_wf : DotDims.WF S4096x4 S4x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S524288x4.size a
  hwx0_0 : ∀ i : grid0.Coords, EltTy.bits .f32 = 32 ∨ (Rect.block (s := S524288x4) S4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S4x256x256.size a
  hwx0_7 : ∀ i : grid0.Coords, EltTy.bits .bf16 = 32 ∨ (Rect.block (s := S4x256x256) S4x256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .bf16 = 32 ∨ (Rect.block (s := S256x1) S256x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S524288x1.size a
  hwx0_11 : ∀ i : grid0.Coords, EltTy.bits .f32 = 32 ∨ (Rect.block (s := S524288x1) S4096x1.size (cc0_transform_11 i) (hinb0_11 i)).WholeWords (EltTy.packing .f32)

variable [Facts₀]

def dot_S4096x4_S4x64_S4096x64_1_0_0_1_n_n : DotDims S4096x4 S4x64 S4096x64 where
  lhsContracting := [1]
  rhsContracting := [0]
  lhsNonContracting := [0]
  rhsNonContracting := [1]
  lhsBatch := []
  rhsBatch := []
  wf := dot_S4096x4_S4x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x4_S4x256_S4096x256_1_0_0_1_n_n : DotDims S4096x4 S4x256 S4096x256 where
  lhsContracting := [1]
  rhsContracting := [0]
  lhsNonContracting := [0]
  rhsNonContracting := [1]
  lhsBatch := []
  rhsBatch := []
  wf := dot_S4096x4_S4x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4x256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x4 : Shape := ⟨2, ![524288, 4]⟩
abbrev S4x64 : Shape := ⟨2, ![4, 64]⟩
abbrev S64 : Shape := ⟨1, ![64]⟩
abbrev S64x1 : Shape := ⟨2, ![64, 1]⟩
abbrev S1 : Shape := ⟨1, ![1]⟩
abbrev S4x256 : Shape := ⟨2, ![4, 256]⟩
abbrev S256 : Shape := ⟨1, ![256]⟩
abbrev S4x256x256 : Shape := ⟨3, ![4, 256, 256]⟩
abbrev S256x1 : Shape := ⟨2, ![256, 1]⟩
abbrev S524288x64 : Shape := ⟨2, ![524288, 64]⟩
abbrev S1x64 : Shape := ⟨2, ![1, 64]⟩
abbrev S_ : Shape := ⟨0, ![]⟩
abbrev S524288x1 : Shape := ⟨2, ![524288, 1]⟩
abbrev S1x1 : Shape := ⟨2, ![1, 1]⟩
abbrev S524288x256 : Shape := ⟨2, ![524288, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 91
  | .vmem => 0
  | .smem => 0
  | _ => 0

abbrev bufTy : (tb : Table) → Fin (tcTables nBuf tb) → BufTy
  | .hbm, ⟨0, _⟩ => ⟨S524288x4, .f32⟩
  | .hbm, ⟨1, _⟩ => ⟨S4x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S4x256, .f32⟩
  | .hbm, ⟨6, _⟩ => ⟨S256, .f32⟩
  | .hbm, ⟨7, _⟩ => ⟨S4x256x256, .f32⟩
  | .hbm, ⟨8, _⟩ => ⟨S4x256, .f32⟩
  | .hbm, ⟨9, _⟩ => ⟨S256x1, .f32⟩
  | .hbm, ⟨10, _⟩ => ⟨S1, .f32⟩
  | .hbm, ⟨11, _⟩ => ⟨S524288x64, .f32⟩
  | .hbm, ⟨12, _⟩ => ⟨S1x64, .f32⟩
  | .hbm, ⟨13, _⟩ => ⟨S524288x64, .f32⟩
  | .hbm, ⟨14, _⟩ => ⟨S524288x64, .f32⟩
  | .hbm, ⟨15, _⟩ => ⟨S_, .f32⟩
  | .hbm, ⟨16, _⟩ => ⟨S524288x64, .f32⟩
  | .hbm, ⟨17, _⟩ => ⟨S524288x64, .f32⟩
  | .hbm, ⟨18, _⟩ => ⟨S524288x1, .f32⟩
  | .hbm, ⟨19, _⟩ => ⟨S1x1, .f32⟩
  | .hbm, ⟨20, _⟩ => ⟨S524288x1, .f32⟩
  | .hbm, ⟨21, _⟩ => ⟨S524288x1, .f32⟩
  | .hbm, ⟨22, _⟩ => ⟨S524288x1, .f32⟩
  | .hbm, ⟨23, _⟩ => ⟨S524288x1, .f32⟩
  | .hbm, ⟨24, _⟩ => ⟨S_, .f32⟩
  | .hbm, ⟨25, _⟩ => ⟨S524288x1, .f32⟩
  | .hbm, ⟨26, _⟩ => ⟨S524288x1, .f32⟩
  | .hbm, ⟨27, _⟩ => ⟨S_, .f32⟩
  | .hbm, ⟨28, _⟩ => ⟨S524288x1, .f32⟩
  | .hbm, ⟨29, _⟩ => ⟨S524288x1, .f32⟩
  | .hbm, ⟨30, _⟩ => ⟨S_, .f32⟩
  | .hbm, ⟨31, _⟩ => ⟨S524288x1, .f32⟩
  | .hbm, ⟨32, _⟩ => ⟨S524288x1, .f32⟩
  | .hbm, ⟨33, _⟩ => ⟨S_, .f32⟩
  | .hbm, ⟨34, _⟩ => ⟨S524288x1, .f32⟩
  | .hbm, ⟨35, _⟩ => ⟨S524288x1, .f32⟩
  | .hbm, ⟨36, _⟩ => ⟨S524288x256, .f32⟩
  | .hbm, ⟨37, _⟩ => ⟨S1x256, .f32⟩
  | .hbm, ⟨38, _⟩ => ⟨S524288x256, .f32⟩
  | .hbm, ⟨39, _⟩ => ⟨S524288x256, .f32⟩
  | .hbm, ⟨40, _⟩ => ⟨S524288x256, .f32⟩
  | .hbm, ⟨41, _⟩ => ⟨S524288x256, .f32⟩
  | .hbm, ⟨42, _⟩ => ⟨S524288x256, .f32⟩
  | .hbm, ⟨43, _⟩ => ⟨S1x256x256, .f32⟩
  | .hbm, ⟨44, _⟩ => ⟨S256x256, .f32⟩
  | .hbm, ⟨45, _⟩ => ⟨S524288x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S524288x256, .f32⟩
  | .hbm, ⟨50, _⟩ => ⟨S524288x256, .f32⟩
  | .hbm, ⟨51, _⟩ => ⟨S524288x256, .f32⟩
  | .hbm, ⟨52, _⟩ => ⟨S524288x256, .f32⟩
  | .hbm, ⟨53, _⟩ => ⟨S524288x256, .f32⟩
  | .hbm, ⟨54, _⟩ => ⟨S1x256x256, .f32⟩
  | .hbm, ⟨55, _⟩ => ⟨S256x256, .f32⟩
  | .hbm, ⟨56, _⟩ => ⟨S524288x256, .f32⟩
  | .hbm, ⟨57, _⟩ => ⟨S1x256, .f32⟩
  | .hbm, ⟨58, _⟩ => ⟨S256, .f32⟩
  | .hbm, ⟨59, _⟩ => ⟨S1x256, .f32⟩
  | .hbm, ⟨60, _⟩ => ⟨S524288x256, .f32⟩
  | .hbm, ⟨61, _⟩ => ⟨S524288x256, .f32⟩
  | .hbm, ⟨62, _⟩ => ⟨S524288x256, .f32⟩
  | .hbm, ⟨63, _⟩ => ⟨S524288x256, .f32⟩
  | .hbm, ⟨64, _⟩ => ⟨S524288x256, .f32⟩
  | .hbm, ⟨65, _⟩ => ⟨S1x256x256, .f32⟩
  | .hbm, ⟨66, _⟩ => ⟨S256x256, .f32⟩
  | .hbm, ⟨67, _⟩ => ⟨S524288x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S524288x256, .f32⟩
  | .hbm, ⟨72, _⟩ => ⟨S524288x256, .f32⟩
  | .hbm, ⟨73, _⟩ => ⟨S524288x256, .f32⟩
  | .hbm, ⟨74, _⟩ => ⟨S524288x256, .f32⟩
  | .hbm, ⟨75, _⟩ => ⟨S524288x256, .f32⟩
  | .hbm, ⟨76, _⟩ => ⟨S1x256x256, .f32⟩
  | .hbm, ⟨77, _⟩ => ⟨S256x256, .f32⟩
  | .hbm, ⟨78, _⟩ => ⟨S524288x256, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S524288x256, .f32⟩
  | .hbm, ⟨83, _⟩ => ⟨S524288x256, .f32⟩
  | .hbm, ⟨84, _⟩ => ⟨S524288x256, .f32⟩
  | .hbm, ⟨85, _⟩ => ⟨S524288x256, .f32⟩
  | .hbm, ⟨86, _⟩ => ⟨S524288x256, .f32⟩
  | .hbm, ⟨87, _⟩ => ⟨S524288x1, .f32⟩
  | .hbm, ⟨88, _⟩ => ⟨S1x1, .f32⟩
  | .hbm, ⟨89, _⟩ => ⟨S524288x1, .f32⟩
  | .hbm, ⟨90, _⟩ => ⟨S524288x1, .f32⟩
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S524288x1_S524288x256_0_1 : S524288x1.BroadcastsInDim S524288x256 (![0, 1] : Fin 2 → Fin S524288x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  dot_S524288x4_S4x64_S524288x64_1_0_0_1_n_n_wf : DotDims.WF S524288x4 S4x64 S524288x64 [1] [0] [0] [1] [] []
  dot_S524288x64_S64x1_S524288x1_1_0_0_1_n_n_wf : DotDims.WF S524288x64 S64x1 S524288x1 [1] [0] [0] [1] [] []
  dot_S524288x4_S4x256_S524288x256_1_0_0_1_n_n_wf : DotDims.WF S524288x4 S4x256 S524288x256 [1] [0] [0] [1] [] []
  dot_S524288x256_S256x256_S524288x256_1_0_0_1_n_n_wf : DotDims.WF S524288x256 S256x256 S524288x256 [1] [0] [0] [1] [] []
  dot_S524288x256_S256x1_S524288x1_1_0_0_1_n_n_wf : DotDims.WF S524288x256 S256x1 S524288x1 [1] [0] [0] [1] [] []

variable [Facts₀]

def dot_S524288x4_S4x64_S524288x64_1_0_0_1_n_n : DotDims S524288x4 S4x64 S524288x64 where
  lhsContracting := [1]
  rhsContracting := [0]
  lhsNonContracting := [0]
  rhsNonContracting := [1]
  lhsBatch := []
  rhsBatch := []
  wf := dot_S524288x4_S4x64_S524288x64_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf
def dot_S524288x4_S4x256_S524288x256_1_0_0_1_n_n : DotDims S524288x4 S4x256 S524288x256 where
  lhsContracting := [1]
  rhsContracting := [0]
  lhsNonContracting := [0]
  rhsNonContracting := [1]
  lhsBatch := []
  rhsBatch := []
  wf := dot_S524288x4_S4x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.SirenRow.lean ====
/-
  One row of a sine network whose frequency is predicted from the row itself.

  A row `c` of four coordinates is sent through a small predictor — an affine map to 64 units, a rectifier, an
  affine map to one number `s`, and `ω = 10 + 90 · σ(s)` with `σ` the logistic function — and then through five
  sine layers `x ↦ sin (ω · (x · W + b))` (the first from 4 to 256 units, four from 256 to 256) and a last affine map
  to one number. Everything is on the extended reals, with the exact sum, product, maximum, logistic and sine.

  The value of a row depends on the weight arrays only through their entries and on the input only through that row:
  `row_congr`. So an array of rows may be computed block of rows by block of rows.
-/
import Idealize.ShloMosaic.PureOps.Ideal
import Idealize.ShloMosaic.Lib.ValueIdx

noncomputable section

open scoped BigOperators

namespace Cert.Siren

open Idealize.ShloMosaic Idealize.ShloMosaic.ValueIdx

/-- `x · W + b` at unit `j`. -/
def affine {K N : ℕ} (W : Fin K → Fin N → EReal) (b : Fin N → EReal) (x : Fin K → EReal) (j : Fin N) : EReal :=
  (∑ k : Fin K, x k * W k j) + b j

/-- The rectified unit `j`: `max (x · W + b) 0`, the zero written as the single-precision word it is read from. -/
def rectified {K N : ℕ} (W : Fin K → Fin N → EReal) (b : Fin N → EReal) (x : Fin K → EReal) (j : Fin N) : EReal :=
  max (affine W b x j) (Ideal.ofBits .f32 0x00000000#32)

/-- The predicted frequency `10 + 90 · σ (h · w + s)` of a vector `h` of hidden units; `10` and `90` are exact
    single-precision numbers and stay written as their words. -/
def frequency {K : ℕ} (w : Fin K → EReal) (s : EReal) (h : Fin K → EReal) : EReal :=
  Ideal.ofBits .f32 0x41200000#32 + Ideal.ofBits .f32 0x42B40000#32 * Ideal.logistic ((∑ k : Fin K, h k * w k) + s)

/-- One sine layer at unit `j`: `sin (ω · (x · W + b))`. -/
def wave {K N : ℕ} (ω : EReal) (W : Fin K → Fin N → EReal) (b : Fin N → EReal) (x : Fin K → EReal) (j : Fin N) : EReal :=
  Ideal.sin (ω * affine W b x j)

section Row

variable (a1 : (⟨2, ![4, 64]⟩ : Shape).Idx → EReal) (a2 : (⟨1, ![64]⟩ : Shape).Idx → EReal)
  (a3 : (⟨2, ![64, 1]⟩ : Shape).Idx → EReal) (a4 : (⟨1, ![1]⟩ : Shape).Idx → EReal)
  (a5 : (⟨2, ![4, 256]⟩ : Shape).Idx → EReal) (a6 : (⟨1, ![256]⟩ : Shape).Idx → EReal)
  (a7 : (⟨3, ![4, 256, 256]⟩ : Shape).Idx → EReal) (a8 : (⟨2, ![4, 256]⟩ : Shape).Idx → EReal)
  (a9 : (⟨2, ![256, 1]⟩ : Shape).Idx → EReal) (a10 : (⟨1, ![1]⟩ : Shape).Idx → EReal)

/-- The frequency of the row `c`, from the predictor's four weight arrays. -/
def omega (c : Fin 4 → EReal) : EReal :=
  frequency (fun k => a3 (ix2 k (0 : Fin 1))) (a4 (ix1 (0 : Fin 1)))
    (rectified (fun k j => a1 (ix2 k j)) (fun j => a2 (ix1 j)) c)

/-- The first sine layer of the row `c` at frequency `ω`. -/
def first (ω : EReal) (c : Fin 4 → EReal) : Fin 256 → EReal :=
  wave ω (fun k j => a5 (ix2 k j)) (fun j => a6 (ix1 j)) c

/-- The `l`-th hidden sine layer: slab `l` of the stacked weights and row `l` of the stacked biases. -/
def hidden (l : Fin 4) (ω : EReal) (x : Fin 256 → EReal) : Fin 256 → EReal :=
  wave ω (fun k j => a7 (ix3 l k j)) (fun j => a8 (ix2 l j)) x

/-- The last affine map to one number. -/
def readout (x : Fin 256 → EReal) : EReal :=
  (∑ k : Fin 256, x k * a9 (ix2 k (0 : Fin 1))) + a10 (ix1 (0 : Fin 1))

/-- The network's value on the row `c`. -/
def row (c : Fin 4 → EReal) : EReal :=
  readout a9 a10 (hidden a7 a8 3 (omega a1 a2 a3 a4 c) (hidden a7 a8 2 (omega a1 a2 a3 a4 c)
    (hidden a7 a8 1 (omega a1 a2 a3 a4 c) (hidden a7 a8 0 (omega a1 a2 a3 a4 c)
      (first a5 a6 (omega a1 a2 a3 a4 c) c)))))

/-- The network applied to every row of a `524288 × 4` array: a `524288 × 1` column. -/
def G (a0 : (⟨2, ![524288, 4]⟩ : Shape).Idx → EReal) : (⟨2, ![524288, 1]⟩ : Shape).Idx → EReal :=
  fun i => row a1 a2 a3 a4 a5 a6 a7 a8 a9 a10 (fun k => a0 (ix2 (⟨(i 0).val, (i 0).isLt⟩ : Fin 524288) k))

theorem G_ix2 (a0 : (⟨2, ![524288, 4]⟩ : Shape).Idx → EReal) (r : Fin 524288) (q : Fin 1) :
    G a1 a2 a3 a4 a5 a6 a7 a8 a9 a10 a0 (ix2 r q) = row a1 a2 a3 a4 a5 a6 a7 a8 a9 a10 (fun k => a0 (ix2 r k)) := rfl

end Row

/-- A row's value is a function of the ENTRIES of the weight arrays and of the row: arrays that agree entry by entry,
    and rows that agree coordinate by coordinate, give the same value. -/
theorem row_congr
    {a1 b1 : (⟨2, ![4, 64]⟩ : Shape).Idx → EReal} {a2 b2 : (⟨1, ![64]⟩ : Shape).Idx → EReal}
    {a3 b3 : (⟨2, ![64, 1]⟩ : Shape).Idx → EReal} {a4 b4 : (⟨1, ![1]⟩ : Shape).Idx → EReal}
    {a5 b5 : (⟨2, ![4, 256]⟩ : Shape).Idx → EReal} {a6 b6 : (⟨1, ![256]⟩ : Shape).Idx → EReal}
    {a7 b7 : (⟨3, ![4, 256, 256]⟩ : Shape).Idx → EReal} {a8 b8 : (⟨2, ![4, 256]⟩ : Shape).Idx → EReal}
    {a9 b9 : (⟨2, ![256, 1]⟩ : Shape).Idx → EReal} {a10 b10 : (⟨1, ![1]⟩ : Shape).Idx → EReal}
    {c d : Fin 4 → EReal}
    (h1 : ∀ i, a1 i = b1 i) (h2 : ∀ i, a2 i = b2 i) (h3 : ∀ i, a3 i = b3 i) (h4 : ∀ i, a4 i = b4 i)
    (h5 : ∀ i, a5 i = b5 i) (h6 : ∀ i, a6 i = b6 i) (h7 : ∀ i, a7 i = b7 i) (h8 : ∀ i, a8 i = b8 i)
    (h9 : ∀ i, a9 i = b9 i) (h10 : ∀ i, a10 i = b10 i) (hc : ∀ k, c k = d k) :
    row a1 a2 a3 a4 a5 a6 a7 a8 a9 a10 c = row b1 b2 b3 b4 b5 b6 b7 b8 b9 b10 d := by
  obtain rfl : a1 = b1 := funext h1
  obtain rfl : a2 = b2 := funext h2
  obtain rfl : a3 = b3 := funext h3
  obtain rfl : a4 = b4 := funext h4
  obtain rfl : a5 = b5 := funext h5
  obtain rfl : a6 = b6 := funext h6
  obtain rfl : a7 = b7 := funext h7
  obtain rfl : a8 = b8 := funext h8
  obtain rfl : a9 = b9 := funext h9
  obtain rfl : a10 = b10 := funext h10
  obtain rfl : c = d := funext hc
  rfl

/-! ## Two facts about the words -/

/-- The single-precision word `0x3F800000` denotes the number one. -/
theorem ofBits_one_f32 : Ideal.ofBits .f32 0x3F800000#32 = 1 := by
  simp [Ideal.ofBits, Ideal.ieee, -EReal.coe_mul]
  norm_num

/-- The logistic function spelt with a negation, an exponential, a sum and a quotient, the two ones written as
    their words, is the logistic function. -/
theorem logistic_spelt (x : EReal) :
    Ideal.div (Ideal.ofBits .f32 0x3F800000#32) (Ideal.ofBits .f32 0x3F800000#32 + Ideal.exp (-x)) = Ideal.logistic x := by
  rw [ofBits_one_f32]
  rfl

end Cert.Siren

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.KernelRow.lean ====
/-
  The kernel body's value on one row of its block.

  The body works on a block of 4096 rows of coordinates and on the whole weight arrays. Every operation in it is
  either entry by entry, a re-laying of a bias vector as a row repeated over the block, a re-laying of the per-row
  frequency as a column repeated over the 256 units, a matrix product accumulated into zero, or the reading of one
  slab `l` of the stacked hidden weights and one row `l` of the stacked hidden biases. Read at row `p`, each of them
  involves row `p` of its left operand only, so the block's output at row `p` is the network's value
  (`Cert.Siren.row`) on row `p` of the block of coordinates. A change of float format is the identity on the
  extended reals, so the half-precision copies of the hidden activations and weights are the values themselves.
-/
import proofs.«146353_j82849919139907_2_alg».proof.Proof.Gen.KernelIdeal.Frame
import proofs.«146353_j82849919139907_2_alg».proof.Proof.SirenRow
import proofs.«146353_j82849919139907_2_alg».proof.Proof.LibPlainMatmul
import proofs.«146353_j82849919139907_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.Siren
  Cert.LibPlainMatmul Cert.LibColumn

/-- The logistic function of a vector, read at an index. -/
theorem logistic_apply {s : Shape} {φ : FTy} (x : FVec Ideal s φ) (i : s.Idx) :
    logistic x i = Ideal.logistic (x i) := rfl

/-- The sine of a vector, read at an index. -/
theorem sin_apply {s : Shape} {φ : FTy} (x : FVec Ideal s φ) (i : s.Idx) : sin x i = Ideal.sin (x i) := rfl

/-- Slab `l` of a `4 × 256 × 256` stack, taken as a `1 × 256 × 256` piece starting at `off = (l, 0, 0)`: the piece's
    entry `(0, k, j)` sits at the stack's index `(l, k, j)`. -/
theorem slab_idx (off : Fin 3 → ℕ) (l : Fin 4) (h0 : off 0 = l.val) (h1 : off 1 = 0) (h2 : off 2 = 0)
    (inb : ∀ a, off a + (⟨3, ![1, 256, 256]⟩ : Shape).size a ≤ (⟨3, ![4, 256, 256]⟩ : Shape).size a)
    (k j : Fin 256) :
    (Rect.unit (s := ⟨3, ![4, 256, 256]⟩) off (⟨3, ![1, 256, 256]⟩ : Shape).size inb).idx (ix3 (0 : Fin 1) k j)
      = ix3 l k j := by
  refine funext fun a => Fin.ext ?_
  match a with
  | ⟨0, _⟩ => show off 0 + 1 * 0 = l.val; omega
  | ⟨1, _⟩ => show off 1 + 1 * k.val = k.val; omega
  | ⟨2, _⟩ => show off 2 + 1 * j.val = j.val; omega

/-- Row `l` of a `4 × 256` stack, taken as a `1 × 256` piece starting at `off = (l, 0)`: the piece's entry `(0, j)`
    sits at the stack's index `(l, j)`. -/
theorem line_idx (off : Fin 2 → ℕ) (l : Fin 4) (h0 : off 0 = l.val) (h1 : off 1 = 0)
    (inb : ∀ a, off a + (⟨2, ![1, 256]⟩ : Shape).size a ≤ (⟨2, ![4, 256]⟩ : Shape).size a) (j : Fin 256) :
    (Rect.unit (s := ⟨2, ![4, 256]⟩) off (⟨2, ![1, 256]⟩ : Shape).size inb).idx (ix2 (0 : Fin 1) j) = ix2 l j := by
  refine funext fun a => Fin.ext ?_
  match a with
  | ⟨0, _⟩ => show off 0 + 1 * 0 = l.val; omega
  | ⟨1, _⟩ => show off 1 + 1 * j.val = j.val; omega

/-! ## The five pieces of the body, each read at row `p` -/

/-- The frequency column at row `p` is the predicted frequency of row `p` of the coordinates. -/
theorem pay2_at (v0 : FVec Ideal S4096x4 .f32) (v1 : FVec Ideal S4x64 .f32) (v2 : FVec Ideal S64 .f32)
    (v9 : FVec Ideal S64x1 .f32) (v10 : FVec Ideal S1 .f32) (p : Fin 4096) (q : Fin 1) :
    k0_pay2 (F := Ideal) v0 v1 v2 v9 v10 (ix2 p q) = omega v1 v2 v9 v10 (fun k => v0 (ix2 p k)) := by
  obtain rfl : q = 0 := Subsingleton.elim _ _
  unfold k0_pay2
  simp only [addf_apply, mulf_apply, maximumf_apply, broadcast_apply, logistic_apply,
    matmul_plain_zero_apply dot_S4096x4_S4x64_S4096x64_1_0_0_1_n_n rfl,
    matmul_plain_zero_apply dot_S4096x64_S64x1_S4096x1_1_0_0_1_n_n rfl,
    broadcastTo_1b_ab_apply, shapeCast_a_1a_apply]
  rfl

/-- The first hidden layer's product before its bias, at `(p, j)`: the first sine layer of row `p` against column
    `j` of slab 0. -/
theorem pay3_at (v0 : FVec Ideal S4096x4 .f32) (v1 : FVec Ideal S4x64 .f32) (v2 : FVec Ideal S64 .f32)
    (v9 : FVec Ideal S64x1 .f32) (v10 : FVec Ideal S1 .f32) (v20 : FVec Ideal S4x256 .f32) (v21 : FVec Ideal S256 .f32)
    (v29 : FVec Ideal S1x256x256 .bf16) (p : Fin 4096) (j : Fin 256) :
    k0_pay3 (F := Ideal) v0 v1 v2 v9 v10 v20 v21 v29 (ix2 p j)
      = ∑ k : Fin 256, first v20 v21 (omega v1 v2 v9 v10 (fun k => v0 (ix2 p k))) (fun k => v0 (ix2 p k)) k
          * v29 (ix3 (0 : Fin 1) k j) := by
  unfold k0_pay3
  simp only [addf_apply, mulf_apply, sin_apply, truncf_apply,
    matmul_plain_zero_apply dot_S4096x4_S4x256_S4096x256_1_0_0_1_n_n rfl,
    matmul_plain_zero_apply dot_S4096x256_S256x256_S4096x256_1_0_0_1_n_n rfl,
    broadcastTo_1b_ab_apply, shapeCast_a_1a_apply, broadcastTo_a1_ab_apply, shapeCast_1ab_ab_apply, pay2_at]
  rfl

/-- A `1 × 256` bias row flattened and laid out again is itself. -/
theorem pay4_at (v31 : FVec Ideal S1x256 .f32) (j : Fin 256) :
    k0_pay4 (F := Ideal) v31 (ix2 (0 : Fin 1) j) = v31 (ix2 (0 : Fin 1) j) := by
  unfold k0_pay4
  simp only [shapeCast_a_1a_apply, shapeCast_1a_a_apply]

/-- The last hidden activation at `(p, j)`, from the frequency column, the first hidden product and bias, and the
    three later slabs and bias rows: four sine layers, the first of them already multiplied out. -/
theorem pay5_at (v19 : FVec Ideal S4096x1 .f32) (v34 : FVec Ideal S4096x256 .f32) (v35 : FVec Ideal S1x256 .f32)
    (v41 : FVec Ideal S1x256x256 .bf16) (v43 : FVec Ideal S1x256 .f32) (v53 : FVec Ideal S1x256x256 .bf16)
    (v55 : FVec Ideal S1x256 .f32) (v65 : FVec Ideal S1x256x256 .bf16) (v67 : FVec Ideal S1x256 .f32)
    (p : Fin 4096) (j : Fin 256) :
    k0_pay5 (F := Ideal) v19 v34 v35 v41 v43 v53 v55 v65 v67 (ix2 p j)
      = wave (v19 (ix2 p (0 : Fin 1))) (fun k j => v65 (ix3 (0 : Fin 1) k j)) (fun j => v67 (ix2 (0 : Fin 1) j))
          (wave (v19 (ix2 p (0 : Fin 1))) (fun k j => v53 (ix3 (0 : Fin 1) k j)) (fun j => v55 (ix2 (0 : Fin 1) j))
            (wave (v19 (ix2 p (0 : Fin 1))) (fun k j => v41 (ix3 (0 : Fin 1) k j)) (fun j => v43 (ix2 (0 : Fin 1) j))
              (fun j => Ideal.sin (v19 (ix2 p (0 : Fin 1)) * (v34 (ix2 p j) + v35 (ix2 (0 : Fin 1) j)))))) j := by
  unfold k0_pay5
  simp only [addf_apply, mulf_apply, sin_apply, truncf_apply,
    matmul_plain_zero_apply dot_S4096x256_S256x256_S4096x256_1_0_0_1_n_n rfl,
    broadcastTo_1b_ab_apply, shapeCast_a_1a_apply, shapeCast_1a_a_apply, broadcastTo_a1_ab_apply,
    shapeCast_1ab_ab_apply]
  rfl

/-- The output column at row `p`: the last affine map of row `p` of the last hidden activation. -/
theorem pay1_at (v76 : FVec Ideal S4096x256 .f32) (v77 : FVec Ideal S256x1 .bf16) (v79 : FVec Ideal S1 .f32)
    (p : Fin 4096) (q : Fin 1) :
    k0_pay1 (F := Ideal) v76 v77 v79 (ix2 p q) = (∑ k : Fin 256, v76 (ix2 p k) * v77 (ix2 k q)) + v79 (ix1 q) := by
  unfold k0_pay1
  simp only [addf_apply, truncf_apply, shapeCast_self,
    matmul_plain_zero_apply dot_S4096x256_S256x1_S4096x1_1_0_0_1_n_n rfl,
    broadcastTo_1b_ab_apply, shapeCast_a_1a_apply]

/-! ## The body's output block at row `p` -/

theorem zeros1 : (![0] : Fin 1 → Nat) = fun _ => 0 := funext fun a => by fin_cases a; rfl
theorem zeros2 : (![0, 0] : Fin 2 → Nat) = fun _ => 0 := funext fun a => by fin_cases a <;> rfl

/-- What the body leaves in its output block, at row `p`: the network's value on row `p` of the block of coordinates,
    with the weight arrays as the body finds them. -/
theorem out_at (x0 : Vec Ideal S4096x4 .f32) (x1 : Vec Ideal S4x64 .f32) (x2 : Vec Ideal S64 .f32)
    (x3 : Vec Ideal S64x1 .f32) (x4 : Vec Ideal S1 .f32) (x5 : Vec Ideal S4x256 .f32) (x6 : Vec Ideal S256 .f32)
    (x7 : Vec Ideal S4x256x256 .bf16) (x8 : Vec Ideal S4x256 .f32) (x9 : Vec Ideal S256x1 .bf16)
    (x10 : Vec Ideal S1 .f32) (p : Fin 4096) (q : Fin 1) :
    out0_11 (F := Ideal) x0 x1 x2 x3 x4 x5 x6 x7 x8 x9 x10 (ix2 p q)
      = row x1 x2 x3 x4 x5 x6 x7 x8 x9 x10 (fun k => x0 (ix2 p k)) := by
  obtain rfl : q = 0 := Subsingleton.elim _ _
  unfold out0_11
  rw [View.canon_unit_zero zeros2]
  simp only [View.ld_unit_zero (S := S4096x4) zeros2, View.ld_unit_zero (S := S4x64) zeros2,
    View.ld_unit_zero (S := S64) zeros1, View.ld_unit_zero (S := S64x1) zeros2, View.ld_unit_zero (S := S1) zeros1,
    View.ld_unit_zero (S := S4x256) zeros2, View.ld_unit_zero (S := S256) zeros1,
    View.ld_unit_zero (S := S256x1) zeros2]
  simp only [pay1_at, pay5_at, pay2_at, pay3_at, pay4_at, View.ld,
    slab_idx ![0, 0, 0] 0 rfl rfl rfl, slab_idx ![1, 0, 0] 1 rfl rfl rfl, slab_idx ![2, 0, 0] 2 rfl rfl rfl,
    slab_idx ![3, 0, 0] 3 rfl rfl rfl, line_idx ![0, 0] 0 rfl rfl, line_idx ![1, 0] 1 rfl rfl,
    line_idx ![2, 0] 2 rfl rfl, line_idx ![3, 0] 3 rfl rfl]
  rfl

end Cert.KernelIdeal.RowValue

end
-- ==== Proof.KernelArray.lean ====
/-
  From blocks of rows to the whole column.

  The call runs over 128 grid points. Point `t` stages rows `4096·t … 4096·t + 4095` of the coordinates, the whole of
  every weight array (the two half-precision copies made before the call are, on the extended reals, the arrays
  themselves), and writes back rows `4096·t … 4096·t + 4095` of the result column. What it writes at row `p` of its
  block is the network's value on row `p` of its block of coordinates (`RowValue.out_at`), that is on row
  `4096·t + p` of the coordinates: block `t` of `Cert.Siren.G`. The 128 blocks cover the column, so after the run the
  column is `G` of the argument arrays.
-/
import proofs.«146353_j82849919139907_2_alg».proof.Proof.Gen.KernelIdeal.Value
import proofs.«146353_j82849919139907_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx Cert.Siren

variable (m : (ℓ : Loc nD τ sig) → Buf (Elt Ideal) ℓ) (ρ : Dev nD → PrngReg)

/-- The printed index maps over the 128 grid points: the coordinates' and the result's blocks move down with the point,
    every weight array's block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-- The half-precision copy of the stacked hidden weights made before the call is, on the extended reals, the
    argument itself. -/
theorem copy7 (c : Dev nD) :
    (V m c main_v0 : S4x256x256.Idx → EReal) = m ((c : Thread nD τ).loc main_arg7) := by
  dsimp only [Gen.V, Gen.hostOps0]; after_results; rfl

/-- The same for the last layer's weights. -/
theorem copy9 (c : Dev nD) :
    (V m c main_v1 : S256x1.Idx → EReal) = m ((c : Thread nD τ).loc main_arg9) := by
  dsimp only [Gen.V, Gen.hostOps0]; after_results; rfl

/-- The network applied to every row of the coordinates as the call finds the arrays. -/
abbrev Gat (c : Dev nD) : S524288x1.Idx → EReal :=
  G (V m c main_arg1) (V m c main_arg2) (V m c main_arg3) (V m c main_arg4) (V m c main_arg5) (V m c main_arg6)
    (V m c main_v0) (V m c main_arg8) (V m c main_v1) (V m c main_arg10) (V m c main_arg0)

/-- WHAT POINT `t` WRITES BACK is block `t` of that column. -/
theorem flushed_eq (c : Dev nD) (t : Fin cfg0.N) :
    (dats m 0 c).flushed 11 t = ((cfg0.win 11).blk t).view.read (Elt Ideal) (Gat m c) := by
  rw [flushed11]
  obtain ⟨e00, e01, e10, e11, e20, e30, e31, e40, e50, e51, e60, e70, e71, e72, e80, e81, e90, e91, e100, e110, e111⟩ :=
    idx_facts t
  have ht : t.val < 128 := Nat.lt_of_lt_of_eq t.isLt N_0
  suffices h : ∀ y : S4096x1.Idx,
      out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
        = Gat m c (((cfg0.win 11).blk t).view.emb y) from funext h
  intro y
  obtain ⟨p, q, rfl⟩ : ∃ (p : Fin 4096) (q : Fin 1), y = ix2 p q := ⟨y 0, y 1, eq_ix2 y⟩
  have hp := p.isLt
  have hq := q.isLt
  refine (RowValue.out_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  have hemb : ((cfg0.win 11).blk t).view.emb (ix2 p q)
      = ix2 (⟨t.val * 4096 + p.val, by omega⟩ : Fin 524288) q := by
    funext a; apply Fin.ext
    match a with
    | ⟨0, _⟩ => show win0_11.index t (0 : Fin 2) * 4096 + 1 * p.val = t.val * 4096 + p.val; rw [e110]; omega
    | ⟨1, _⟩ => show win0_11.index t (1 : Fin 2) * 1 + 1 * q.val = q.val; rw [e111]; omega
  rw [hemb]
  show _ = row (V m c main_arg1) (V m c main_arg2) (V m c main_arg3) (V m c main_arg4) (V m c main_arg5)
    (V m c main_arg6) (V m c main_v0) (V m c main_arg8) (V m c main_v1) (V m c main_arg10)
    (fun k => V m c main_arg0 (ix2 (⟨t.val * 4096 + p.val, by omega⟩ : Fin 524288) k))
  refine row_congr ?_ ?_ ?_ ?_ ?_ ?_ ?_ ?_ ?_ ?_ ?_
  · intro i
    show V m c main_arg1 (((cfg0.win 1).blk t).view.emb i) = V m c main_arg1 i
    refine congrArg _ (funext fun a => Fin.ext ?_)
    match a with
    | ⟨0, _⟩ => show win0_1.index t (0 : Fin 2) * 4 + 1 * (i 0).val = (i 0).val; rw [e10]; omega
    | ⟨1, _⟩ => show win0_1.index t (1 : Fin 2) * 64 + 1 * (i 1).val = (i 1).val; rw [e11]; omega
  · intro i
    show V m c main_arg2 (((cfg0.win 2).blk t).view.emb i) = V m c main_arg2 i
    refine congrArg _ (funext fun a => Fin.ext ?_)
    match a with
    | ⟨0, _⟩ => show win0_2.index t (0 : Fin 1) * 64 + 1 * (i 0).val = (i 0).val; rw [e20]; omega
  · intro i
    show V m c main_arg3 (((cfg0.win 3).blk t).view.emb i) = V m c main_arg3 i
    refine congrArg _ (funext fun a => Fin.ext ?_)
    match a with
    | ⟨0, _⟩ => show win0_3.index t (0 : Fin 2) * 64 + 1 * (i 0).val = (i 0).val; rw [e30]; omega
    | ⟨1, _⟩ => show win0_3.index t (1 : Fin 2) * 1 + 1 * (i 1).val = (i 1).val; rw [e31]; omega
  · intro i
    show V m c main_arg4 (((cfg0.win 4).blk t).view.emb i) = V m c main_arg4 i
    refine congrArg _ (funext fun a => Fin.ext ?_)
    match a with
    | ⟨0, _⟩ => show win0_4.index t (0 : Fin 1) * 1 + 1 * (i 0).val = (i 0).val; rw [e40]; omega
  · intro i
    show V m c main_arg5 (((cfg0.win 5).blk t).view.emb i) = V m c main_arg5 i
    refine congrArg _ (funext fun a => Fin.ext ?_)
    match a with
    | ⟨0, _⟩ => show win0_5.index t (0 : Fin 2) * 4 + 1 * (i 0).val = (i 0).val; rw [e50]; omega
    | ⟨1, _⟩ => show win0_5.index t (1 : Fin 2) * 256 + 1 * (i 1).val = (i 1).val; rw [e51]; omega
  · intro i
    show V m c main_arg6 (((cfg0.win 6).blk t).view.emb i) = V m c main_arg6 i
    refine congrArg _ (funext fun a => Fin.ext ?_)
    match a with
    | ⟨0, _⟩ => show win0_6.index t (0 : Fin 1) * 256 + 1 * (i 0).val = (i 0).val; rw [e60]; omega
  · intro i
    show V m c main_v0 (((cfg0.win 7).blk t).view.emb i) = V m c main_v0 i
    refine congrArg _ (funext fun a => Fin.ext ?_)
    match a with
    | ⟨0, _⟩ => show win0_7.index t (0 : Fin 3) * 4 + 1 * (i 0).val = (i 0).val; rw [e70]; omega
    | ⟨1, _⟩ => show win0_7.index t (1 : Fin 3) * 256 + 1 * (i 1).val = (i 1).val; rw [e71]; omega
    | ⟨2, _⟩ => show win0_7.index t (2 : Fin 3) * 256 + 1 * (i 2).val = (i 2).val; rw [e72]; omega
  · intro i
    show V m c main_arg8 (((cfg0.win 8).blk t).view.emb i) = V m c main_arg8 i
    refine congrArg _ (funext fun a => Fin.ext ?_)
    match a with
    | ⟨0, _⟩ => show win0_8.index t (0 : Fin 2) * 4 + 1 * (i 0).val = (i 0).val; rw [e80]; omega
    | ⟨1, _⟩ => show win0_8.index t (1 : Fin 2) * 256 + 1 * (i 1).val = (i 1).val; rw [e81]; omega
  · intro i
    show V m c main_v1 (((cfg0.win 9).blk t).view.emb i) = V m c main_v1 i
    refine congrArg _ (funext fun a => Fin.ext ?_)
    match a with
    | ⟨0, _⟩ => show win0_9.index t (0 : Fin 2) * 256 + 1 * (i 0).val = (i 0).val; rw [e90]; omega
    | ⟨1, _⟩ => show win0_9.index t (1 : Fin 2) * 1 + 1 * (i 1).val = (i 1).val; rw [e91]; omega
  · intro i
    show V m c main_arg10 (((cfg0.win 10).blk t).view.emb i) = V m c main_arg10 i
    refine congrArg _ (funext fun a => Fin.ext ?_)
    match a with
    | ⟨0, _⟩ => show win0_10.index t (0 : Fin 1) * 1 + 1 * (i 0).val = (i 0).val; rw [e100]; omega
  · intro k
    show V m c main_arg0 (((cfg0.win 0).blk t).view.emb (ix2 p k))
      = V m c main_arg0 (ix2 (⟨t.val * 4096 + p.val, by omega⟩ : Fin 524288) k)
    refine congrArg _ (funext fun a => Fin.ext ?_)
    match a with
    | ⟨0, _⟩ => show win0_0.index t (0 : Fin 2) * 4096 + 1 * p.val = t.val * 4096 + p.val; rw [e00]; omega
    | ⟨1, _⟩ => show win0_0.index t (1 : Fin 2) * 4 + 1 * k.val = k.val; rw [e01]; omega

/-- An index of the column is in point `t`'s block iff each coordinate is in the block's range on its axis. -/
theorem mem_blk (t : Fin cfg0.N) (i : S524288x1.Idx) :
    i ∈ ((cfg0.win 11).blk t).view.set ↔ ∀ a : Fin 2, win0_11.index t a * S4096x1.size a ≤ (i a).val
      ∧ (i a).val < win0_11.index t a * S4096x1.size a + S4096x1.size a := by
  show i ∈ ((View.whole main_v2).slice (win0_11.rect t)).set ↔ _
  rw [View.set_slice_whole, Rect.mem_set_unit]
  exact Iff.rfl

/-- Every row of the column is in some point's block: row `r` in point `r / 4096`'s. -/
theorem covered (i : S524288x1.Idx) :
    ∃ t : Fin cfg0.N, (cfg0.win 11).flush t = true ∧ i ∈ ((cfg0.win 11).blk t).view.set := by
  have hi0 : (i 0).val < 524288 := (i 0).isLt
  have hi1 : (i 1).val < 1 := (i 1).isLt
  have hN : cfg0.N = 128 := N_0
  have hlt : (i 0).val / 4096 < cfg0.N := by rw [hN]; omega
  obtain ⟨-, -, -, -, -, -, -, -, -, -, -, -, -, -, -, -, -, -, -, e110, e111⟩ := idx_facts ⟨(i 0).val / 4096, hlt⟩
  have e0 : win0_11.index ⟨(i 0).val / 4096, hlt⟩ (0 : Fin 2) = (i 0).val / 4096 := e110
  refine ⟨⟨(i 0).val / 4096, hlt⟩, flush0_11 _, ?_⟩
  rw [mem_blk]
  intro a
  match a with
  | ⟨0, _⟩ =>
    show win0_11.index ⟨(i 0).val / 4096, hlt⟩ (0 : Fin 2) * 4096 ≤ (i 0).val
      ∧ (i 0).val < win0_11.index ⟨(i 0).val / 4096, hlt⟩ (0 : Fin 2) * 4096 + 4096
    rw [e0]; omega
  | ⟨1, _⟩ =>
    show win0_11.index ⟨(i 0).val / 4096, hlt⟩ (1 : Fin 2) * 1 ≤ (i 1).val
      ∧ (i 1).val < win0_11.index ⟨(i 0).val / 4096, hlt⟩ (1 : Fin 2) * 1 + 1
    rw [e111]; omega

/-- THE COLUMN after the run: the network applied to every row of the coordinate argument, with the weight
    arguments. -/
theorem final (c : Dev nD) :
    (dats m 0 c).arrAt 11 cfg0.N
      = G (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg0)) := by
  rw [(dats m 0 c).arrAt_eq_of_cover 11 (Gat m c) (fun t _ => flushed_eq m c t) (covered)]
  show G (V m c main_arg1) (V m c main_arg2) (V m c main_arg3) (V m c main_arg4) (V m c main_arg5) (V m c main_arg6)
    (V m c main_v0 : S4x256x256.Idx → EReal) (V m c main_arg8) (V m c main_v1 : S256x1.Idx → EReal)
    (V m c main_arg10) (V m c main_arg0) = _
  rw [copy7, copy9, V_main_arg0, V_main_arg1, V_main_arg2, V_main_arg3, V_main_arg4, V_main_arg5, V_main_arg6,
    V_main_arg8, V_main_arg10]

/-- The run, read: the result column at the network's values, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6))
            (m ((c : Thread nD τ).loc main_arg7)) (m ((c : Thread nD τ).loc main_arg8))
            (m ((c : Thread nD τ).loc main_arg9)) (m ((c : Thread nD τ).loc main_arg10))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.ArrayValue

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«146353_j82849919139907_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.ReferenceRow.lean ====
/-
  The reference's value on one row.

  The reference applies the same network to all 524288 rows at once: each of its matrix products is a whole-array
  product, each bias is a vector laid out as a row and repeated over all rows, the per-row frequency is a column repeated
  over the 256 units, slab `l` of the stacked hidden weights is cut out and flattened to a matrix, and the logistic
  function is spelt with a negation, an exponential, a sum and a quotient. Read at row `r`, every stage involves row
  `r` of its left operand only, so the result's entry `(r, 0)` is the network's value (`Cert.Siren.row`) on row `r`
  of the coordinates: the result array is `Cert.Siren.G` of the eleven argument arrays.
-/
import proofs.«146353_j82849919139907_2_alg».proof.Proof.Gen.ReferenceIdeal.Read
import proofs.«146353_j82849919139907_2_alg».proof.Proof.SirenRow
import proofs.«146353_j82849919139907_2_alg».proof.Proof.LibPlainDot
import Idealize.ShloMosaic.PureOps.Ideal.Laws

noncomputable section

open scoped BigOperators

namespace Cert.ReferenceIdeal.RowValue

open Cert.ReferenceIdeal Cert.ReferenceIdeal.Read Idealize.ShloMosaic Idealize.ShloMosaic.ValueIdx Cert.Siren
  Cert.LibPlainDot

/-! ## Biases laid out as a row and repeated over the rows -/

theorem bias_v2 (x2 : FVec Ideal S64 .f32) (r : Fin 524288) (j : Fin 64) :
    val_main_v2 (F := Ideal) x2 (ix2 r j) = x2 (ix1 j) := by
  rw [val_main_v2_apply, val_main_v1_apply]
  exact congrArg x2 (funext fun a => Fin.ext (by match a with | ⟨0, _⟩ => rfl))

theorem bias_v7 (x4 : FVec Ideal S1 .f32) (r : Fin 524288) (q : Fin 1) :
    val_main_v7 (F := Ideal) x4 (ix2 r q) = x4 (ix1 (0 : Fin 1)) := by
  rw [val_main_v7_apply, val_main_v6_apply]
  exact congrArg x4 (funext fun a => Fin.ext (by match a with | ⟨0, _⟩ => rfl))

theorem bias_v21 (x6 : FVec Ideal S256 .f32) (r : Fin 524288) (j : Fin 256) :
    val_main_v21 (F := Ideal) x6 (ix2 r j) = x6 (ix1 j) := by
  rw [val_main_v21_apply, val_main_v20_apply]
  exact congrArg x6 (funext fun a => Fin.ext (by match a with | ⟨0, _⟩ => rfl))

theorem bias_v72 (x10 : FVec Ideal S1 .f32) (r : Fin 524288) (q : Fin 1) :
    val_main_v72 (F := Ideal) x10 (ix2 r q) = x10 (ix1 (0 : Fin 1)) := by
  rw [val_main_v72_apply, val_main_v71_apply]
  exact congrArg x10 (funext fun a => Fin.ext (by match a with | ⟨0, _⟩ => rfl))

/-- Row `0` of the stacked hidden biases, cut out, flattened, laid out as a row and repeated over the rows. -/
theorem bias_v32 (x8 : FVec Ideal S4x256 .f32) (r : Fin 524288) (j : Fin 256) :
    val_main_v32 (F := Ideal) x8 (ix2 r j) = x8 (ix2 (0 : Fin 4) j) := by
  rw [val_main_v32_apply, val_main_v31_apply, val_main_v30_apply, val_main_v29_apply]
  refine congrArg x8 (funext fun a => Fin.ext ?_)
  match a with
  | ⟨0, _⟩ => rfl
  | ⟨1, _⟩ => show j.val % 256 = j.val; omega

/-- Row `1`. -/
theorem bias_v43 (x8 : FVec Ideal S4x256 .f32) (r : Fin 524288) (j : Fin 256) :
    val_main_v43 (F := Ideal) x8 (ix2 r j) = x8 (ix2 (1 : Fin 4) j) := by
  rw [val_main_v43_apply, val_main_v42_apply, val_main_v41_apply, val_main_v40_apply]
  refine congrArg x8 (funext fun a => Fin.ext ?_)
  match a with
  | ⟨0, _⟩ => rfl
  | ⟨1, _⟩ => show j.val % 256 = j.val; omega

/-- Row `2`. -/
theorem bias_v54 (x8 : FVec Ideal S4x256 .f32) (r : Fin 524288) (j : Fin 256) :
    val_main_v54 (F := Ideal) x8 (ix2 r j) = x8 (ix2 (2 : Fin 4) j) := by
  rw [val_main_v54_apply, val_main_v53_apply, val_main_v52_apply, val_main_v51_apply]
  refine congrArg x8 (funext fun a => Fin.ext ?_)
  match a with
  | ⟨0, _⟩ => rfl
  | ⟨1, _⟩ => show j.val % 256 = j.val; omega

/-- Row `3`. -/
theorem bias_v65 (x8 : FVec Ideal S4x256 .f32) (r : Fin 524288) (j : Fin 256) :
    val_main_v65 (F := Ideal) x8 (ix2 r j) = x8 (ix2 (3 : Fin 4) j) := by
  rw [val_main_v65_apply, val_main_v64_apply, val_main_v63_apply, val_main_v62_apply]
  refine congrArg x8 (funext fun a => Fin.ext ?_)
  match a with
  | ⟨0, _⟩ => rfl
  | ⟨1, _⟩ => show j.val % 256 = j.val; omega

/-! ## Slabs of the stacked hidden weights, cut out and flattened to a matrix -/

theorem slab_v27 (x7 : FVec Ideal S4x256x256 .f32) (k j : Fin 256) :
    val_main_v27 (F := Ideal) x7 (ix2 k j) = x7 (ix3 (0 : Fin 4) k j) := by
  rw [val_main_v27_apply, val_main_v26_apply]
  refine congrArg x7 (funext fun a => Fin.ext ?_)
  have hk := k.isLt
  have hj := j.isLt
  match a with
  | ⟨0, _⟩ => rfl
  | ⟨1, _⟩ => show (k.val * 256 + j.val) / 256 % 256 = k.val; omega
  | ⟨2, _⟩ => show (k.val * 256 + j.val) % 256 = j.val; omega

theorem slab_v38 (x7 : FVec Ideal S4x256x256 .f32) (k j : Fin 256) :
    val_main_v38 (F := Ideal) x7 (ix2 k j) = x7 (ix3 (1 : Fin 4) k j) := by
  rw [val_main_v38_apply, val_main_v37_apply]
  refine congrArg x7 (funext fun a => Fin.ext ?_)
  have hk := k.isLt
  have hj := j.isLt
  match a with
  | ⟨0, _⟩ => rfl
  | ⟨1, _⟩ => show (k.val * 256 + j.val) / 256 % 256 = k.val; omega
  | ⟨2, _⟩ => show (k.val * 256 + j.val) % 256 = j.val; omega

theorem slab_v49 (x7 : FVec Ideal S4x256x256 .f32) (k j : Fin 256) :
    val_main_v49 (F := Ideal) x7 (ix2 k j) = x7 (ix3 (2 : Fin 4) k j) := by
  rw [val_main_v49_apply, val_main_v48_apply]
  refine congrArg x7 (funext fun a => Fin.ext ?_)
  have hk := k.isLt
  have hj := j.isLt
  match a with
  | ⟨0, _⟩ => rfl
  | ⟨1, _⟩ => show (k.val * 256 + j.val) / 256 % 256 = k.val; omega
  | ⟨2, _⟩ => show (k.val * 256 + j.val) % 256 = j.val; omega

theorem slab_v60 (x7 : FVec Ideal S4x256x256 .f32) (k j : Fin 256) :
    val_main_v60 (F := Ideal) x7 (ix2 k j) = x7 (ix3 (3 : Fin 4) k j) := by
  rw [val_main_v60_apply, val_main_v59_apply]
  refine congrArg x7 (funext fun a => Fin.ext ?_)
  have hk := k.isLt
  have hj := j.isLt
  match a with
  | ⟨0, _⟩ => rfl
  | ⟨1, _⟩ => show (k.val * 256 + j.val) / 256 % 256 = k.val; omega
  | ⟨2, _⟩ => show (k.val * 256 + j.val) % 256 = j.val; omega

/-! ## The stages at row `r` -/

section Stages

variable (x0 : FVec Ideal S524288x4 .f32) (x1 : FVec Ideal S4x64 .f32) (x2 : FVec Ideal S64 .f32)
  (x3 : FVec Ideal S64x1 .f32) (x4 : FVec Ideal S1 .f32) (x5 : FVec Ideal S4x256 .f32) (x6 : FVec Ideal S256 .f32)
  (x7 : FVec Ideal S4x256x256 .f32) (x8 : FVec Ideal S4x256 .f32) (x9 : FVec Ideal S256x1 .f32)
  (x10 : FVec Ideal S1 .f32)

/-- The rectified hidden units of the predictor. -/
theorem v4_at (r : Fin 524288) (j : Fin 64) :
    val_main_v4 (F := Ideal) x0 x1 x2 (ix2 r j)
      = rectified (fun k j => x1 (ix2 k j)) (fun j => x2 (ix1 j)) (fun k => x0 (ix2 r k)) j := by
  simp only [val_main_v4_apply, val_main_v3_apply, val_main_call0_v0_apply, val_main_call0_cst_apply, val_main_v0,
    dot_plain_apply dot_S524288x4_S4x64_S524288x64_1_0_0_1_n_n rfl, bias_v2]
  rfl

/-- The frequency column. -/
theorem v18_at (r : Fin 524288) (q : Fin 1) :
    val_main_v18 (F := Ideal) x0 x1 x2 x3 x4 (ix2 r q) = omega x1 x2 x3 x4 (fun k => x0 (ix2 r k)) := by
  obtain rfl : q = 0 := Subsingleton.elim _ _
  simp only [val_main_v18_apply, val_main_v17_apply, val_main_cst_2_apply, val_main_v16_apply, val_main_v15_apply,
    val_main_cst_1_apply, val_main_v14_apply, val_main_v13_apply, val_main_cst_0_apply, val_main_v12_apply,
    val_main_v11_apply, val_main_cst_apply, val_main_v10_apply, val_main_v9_apply, val_main_v8_apply, val_main_v5,
    dot_plain_apply dot_S524288x64_S64x1_S524288x1_1_0_0_1_n_n rfl, v4_at, bias_v7,
    Ideal.addf_def, Ideal.mulf_def, Ideal.ofBits_def, Ideal.hostDivf_def, Ideal.hostUnary_exp_def,
    Ideal.hostNegf_def, Ideal.negf_def, logistic_spelt]
  rfl

/-- The frequency column repeated over the 256 units: five copies in the program, one statement each. -/
theorem v23_at (r : Fin 524288) (j : Fin 256) :
    val_main_v23 (F := Ideal) x0 x1 x2 x3 x4 (ix2 r j) = omega x1 x2 x3 x4 (fun k => x0 (ix2 r k)) := by
  rw [val_main_v23_apply, show idx_main_v23 (ix2 r j) = ix2 r (0 : Fin 1) from
    funext fun a => Fin.ext (by match a with | ⟨0, _⟩ => rfl | ⟨1, _⟩ => rfl)]
  exact v18_at x0 x1 x2 x3 x4 r 0
theorem v34_at (r : Fin 524288) (j : Fin 256) :
    val_main_v34 (F := Ideal) x0 x1 x2 x3 x4 (ix2 r j) = omega x1 x2 x3 x4 (fun k => x0 (ix2 r k)) := by
  rw [val_main_v34_apply, show idx_main_v34 (ix2 r j) = ix2 r (0 : Fin 1) from
    funext fun a => Fin.ext (by match a with | ⟨0, _⟩ => rfl | ⟨1, _⟩ => rfl)]
  exact v18_at x0 x1 x2 x3 x4 r 0
theorem v45_at (r : Fin 524288) (j : Fin 256) :
    val_main_v45 (F := Ideal) x0 x1 x2 x3 x4 (ix2 r j) = omega x1 x2 x3 x4 (fun k => x0 (ix2 r k)) := by
  rw [val_main_v45_apply, show idx_main_v45 (ix2 r j) = ix2 r (0 : Fin 1) from
    funext fun a => Fin.ext (by match a with | ⟨0, _⟩ => rfl | ⟨1, _⟩ => rfl)]
  exact v18_at x0 x1 x2 x3 x4 r 0
theorem v56_at (r : Fin 524288) (j : Fin 256) :
    val_main_v56 (F := Ideal) x0 x1 x2 x3 x4 (ix2 r j) = omega x1 x2 x3 x4 (fun k => x0 (ix2 r k)) := by
  rw [val_main_v56_apply, show idx_main_v56 (ix2 r j) = ix2 r (0 : Fin 1) from
    funext fun a => Fin.ext (by match a with | ⟨0, _⟩ => rfl | ⟨1, _⟩ => rfl)]
  exact v18_at x0 x1 x2 x3 x4 r 0
theorem v67_at (r : Fin 524288) (j : Fin 256) :
    val_main_v67 (F := Ideal) x0 x1 x2 x3 x4 (ix2 r j) = omega x1 x2 x3 x4 (fun k => x0 (ix2 r k)) := by
  rw [val_main_v67_apply, show idx_main_v67 (ix2 r j) = ix2 r (0 : Fin 1) from
    funext fun a => Fin.ext (by match a with | ⟨0, _⟩ => rfl | ⟨1, _⟩ => rfl)]
  exact v18_at x0 x1 x2 x3 x4 r 0

/-- The first sine layer. -/
theorem v25_at (r : Fin 524288) (j : Fin 256) :
    val_main_v25 (F := Ideal) x0 x1 x2 x3 x4 x5 x6 (ix2 r j)
      = first x5 x6 (omega x1 x2 x3 x4 (fun k => x0 (ix2 r k))) (fun k => x0 (ix2 r k)) j := by
  simp only [val_main_v25_apply, val_main_v24_apply, val_main_v22_apply, val_main_v19,
    dot_plain_apply dot_S524288x4_S4x256_S524288x256_1_0_0_1_n_n rfl, v23_at, bias_v21]
  rfl

/-- The four hidden sine layers. -/
theorem v36_at (r : Fin 524288) (j : Fin 256) :
    val_main_v36 (F := Ideal) x0 x1 x2 x3 x4 x5 x6 x7 x8 (ix2 r j)
      = hidden x7 x8 0 (omega x1 x2 x3 x4 (fun k => x0 (ix2 r k)))
          (first x5 x6 (omega x1 x2 x3 x4 (fun k => x0 (ix2 r k))) (fun k => x0 (ix2 r k))) j := by
  simp only [val_main_v36_apply, val_main_v35_apply, val_main_v33_apply, val_main_v28,
    dot_plain_apply dot_S524288x256_S256x256_S524288x256_1_0_0_1_n_n rfl, v34_at, v25_at, slab_v27, bias_v32]
  rfl

theorem v47_at (r : Fin 524288) (j : Fin 256) :
    val_main_v47 (F := Ideal) x0 x1 x2 x3 x4 x5 x6 x7 x8 (ix2 r j)
      = hidden x7 x8 1 (omega x1 x2 x3 x4 (fun k => x0 (ix2 r k)))
          (hidden x7 x8 0 (omega x1 x2 x3 x4 (fun k => x0 (ix2 r k)))
            (first x5 x6 (omega x1 x2 x3 x4 (fun k => x0 (ix2 r k))) (fun k => x0 (ix2 r k)))) j := by
  simp only [val_main_v47_apply, val_main_v46_apply, val_main_v44_apply, val_main_v39,
    dot_plain_apply dot_S524288x256_S256x256_S524288x256_1_0_0_1_n_n rfl, v45_at, v36_at, slab_v38, bias_v43]
  rfl

theorem v58_at (r : Fin 524288) (j : Fin 256) :
    val_main_v58 (F := Ideal) x0 x1 x2 x3 x4 x5 x6 x7 x8 (ix2 r j)
      = hidden x7 x8 2 (omega x1 x2 x3 x4 (fun k => x0 (ix2 r k)))
          (hidden x7 x8 1 (omega x1 x2 x3 x4 (fun k => x0 (ix2 r k)))
            (hidden x7 x8 0 (omega x1 x2 x3 x4 (fun k => x0 (ix2 r k)))
              (first x5 x6 (omega x1 x2 x3 x4 (fun k => x0 (ix2 r k))) (fun k => x0 (ix2 r k))))) j := by
  simp only [val_main_v58_apply, val_main_v57_apply, val_main_v55_apply, val_main_v50,
    dot_plain_apply dot_S524288x256_S256x256_S524288x256_1_0_0_1_n_n rfl, v56_at, v47_at, slab_v49, bias_v54]
  rfl

theorem v69_at (r : Fin 524288) (j : Fin 256) :
    val_main_v69 (F := Ideal) x0 x1 x2 x3 x4 x5 x6 x7 x8 (ix2 r j)
      = hidden x7 x8 3 (omega x1 x2 x3 x4 (fun k => x0 (ix2 r k)))
          (hidden x7 x8 2 (omega x1 x2 x3 x4 (fun k => x0 (ix2 r k)))
            (hidden x7 x8 1 (omega x1 x2 x3 x4 (fun k => x0 (ix2 r k)))
              (hidden x7 x8 0 (omega x1 x2 x3 x4 (fun k => x0 (ix2 r k)))
                (first x5 x6 (omega x1 x2 x3 x4 (fun k => x0 (ix2 r k))) (fun k => x0 (ix2 r k)))))) j := by
  simp only [val_main_v69_apply, val_main_v68_apply, val_main_v66_apply, val_main_v61,
    dot_plain_apply dot_S524288x256_S256x256_S524288x256_1_0_0_1_n_n rfl, v67_at, v58_at, slab_v60, bias_v65]
  rfl

/-- The result array is the network applied to every row of the coordinates. -/
theorem result_eq :
    val_main_v73 (F := Ideal) x0 x1 x2 x3 x4 x5 x6 x7 x8 x9 x10 = G x1 x2 x3 x4 x5 x6 x7 x8 x9 x10 x0 := by
  funext i
  obtain ⟨r, q, rfl⟩ : ∃ (r : Fin 524288) (q : Fin 1), i = ix2 r q := ⟨i 0, i 1, eq_ix2 i⟩
  obtain rfl : q = 0 := Subsingleton.elim _ _
  rw [G_ix2]
  simp only [val_main_v73_apply, val_main_v70, dot_plain_apply dot_S524288x256_S256x1_S524288x1_1_0_0_1_n_n rfl,
    v69_at, bias_v72]
  rfl

end Stages

end Cert.ReferenceIdeal.RowValue

end
-- ==== Proof.lean ====
/-
  A sine network with a predicted frequency, computed block of rows by block of rows, against the same network
  computed on all rows at once.

  Both programs send every row `c` of the 524288 × 4 coordinate array through the same function: a predictor
  `ω = 10 + 90 · σ (max (c · W₁ + b₁) 0 · w₂ + b₂)`, then `x₀ = sin (ω · (c · W₀ + b₀))`, four layers
  `x ↦ sin (ω · (x · Wₗ + bₗ))`, and a last affine map to one number (`Cert.Siren.row`). On the extended reals a
  change of float format is the identity, a product accumulated into zero is the plain sum of products, and the
  logistic function is the expression `1 / (1 + exp (−s))` the other program spells out; the operands of every sum and
  product stand in the same order in both programs, so no law of arithmetic beyond this is needed and the
  finiteness of the inputs is never used.

  The one program works on blocks of 4096 rows, one block per grid point, and writes each block of the result column
  back where it belongs (`Proof/KernelRow.lean`: a block's row; `Proof/KernelArray.lean`: the 128 blocks make the
  column); the other works on whole arrays (`Proof/ReferenceRow.lean`). Both result columns are `Cert.Siren.G` of
  the eleven argument arrays (`Proof/SirenRow.lean`).
-/
import proofs.«146353_j82849919139907_2_alg».proof.Defs
import proofs.«146353_j82849919139907_2_alg».proof.Proof.Gen.Kernel
import proofs.«146353_j82849919139907_2_alg».proof.Proof.Gen.Kernel.Skeleton
import proofs.«146353_j82849919139907_2_alg».proof.Proof.Gen.Kernel.Launch
import proofs.«146353_j82849919139907_2_alg».proof.Proof.Gen.Kernel.Points
import proofs.«146353_j82849919139907_2_alg».proof.Proof.Gen.Kernel.Frame
import proofs.«146353_j82849919139907_2_alg».proof.Proof.Gen.KernelIdeal
import proofs.«146353_j82849919139907_2_alg».proof.Proof.Gen.KernelIdeal.Skeleton
import proofs.«146353_j82849919139907_2_alg».proof.Proof.Gen.KernelIdeal.Launch
import proofs.«146353_j82849919139907_2_alg».proof.Proof.Gen.KernelIdeal.Points
import proofs.«146353_j82849919139907_2_alg».proof.Proof.Gen.KernelIdeal.Frame
import proofs.«146353_j82849919139907_2_alg».proof.Proof.Gen.ReferenceIdeal
import proofs.«146353_j82849919139907_2_alg».proof.Proof.Gen.Pre_finite_inputs
import proofs.«146353_j82849919139907_2_alg».proof.Proof.Gen.KernelIdeal.Value
import proofs.«146353_j82849919139907_2_alg».proof.Proof.Gen.ReferenceIdeal.Run
import proofs.«146353_j82849919139907_2_alg».proof.Proof.Gen.ReferenceIdeal.Read
import proofs.«146353_j82849919139907_2_alg».proof.Proof.KernelArray
import proofs.«146353_j82849919139907_2_alg».proof.Proof.ReferenceRow
import Idealize.ShloMosaic.Adequacy
import Idealize.ShloMosaic.Init

noncomputable section

namespace Cert.Proof

open Idealize.ShloMosaic Idealize.ShloMosaic.TcCoe Idealize.SL.Sem

/-- The blockwise program as printed runs, faults nowhere and leaves its arguments as they were. -/
theorem frame_k : Cert.frame_Kernel := fun m ρ _ => Cert.Kernel.Gen.frame m ρ

/-- The same program read on the extended reals. -/
theorem frame_ki : Cert.frame_KernelIdeal := fun m ρ _ => Cert.KernelIdeal.Gen.frame m ρ

/-- The whole-array program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eleven arguments, both programs end with the network applied to every row. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v73_eq, Cert.ReferenceIdeal.RowValue.result_eq, h0, h1, h2, h3, h4, h5, h6,
    h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
